-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x56x56x64 : Shape := ⟨4, ![32, 56, 56, 64]⟩
abbrev S_ : Shape := ⟨0, ![]⟩

class Facts : Prop where
  bcast_S_S32x56x56x64 : S_.BroadcastsInDim S32x56x56x64 (![] : Fin 0 → Fin S32x56x56x64.rank)
  reducesTo_S32x56x56x64_S_d0_1_2_3 : S32x56x56x64.ReducesTo [0, 1, 2, 3] S_
  h_S_ : 0 < S_.numel

variable [Facts]

def fn {F : FTy → Type} [FloatOps F] (main_arg0 : FVec F S32x56x56x64 .f32) (main_arg1 : IVec S32x56x56x64 32) : IVec S_ 1 :=
  let main_v0 : FVec F S32x56x56x64 .f32 := Host.absf main_arg0
  let main_cst : FVec F S_ .f32 := constant S_ .f32 0x7F800000#32
  let main_v1 : FVec F S32x56x56x64 .f32 := broadcastInDim S32x56x56x64 ![] bcast_S_S32x56x56x64 main_cst
  let main_v2 : IVec S32x56x56x64 1 := cmpf .olt main_v0 main_v1
  let main_c : IVec S_ 1 := constantI S_ 1 1#1
  let main_v3 : IVec S_ 1 := (fun x v => Host.reduce IntOp.andi x v reducesTo_S32x56x56x64_S_d0_1_2_3 h_S_) main_v2 main_c
  main_v3
-- ==== Kernel.lean ====
abbrev S32x56x56x64 : Shape := ⟨4, ![32, 56, 56, 64]⟩
abbrev S32x112x112x64 : Shape := ⟨4, ![32, 112, 112, 64]⟩
abbrev S1x112x112x64 : Shape := ⟨4, ![1, 112, 112, 64]⟩
abbrev S25690112 : Shape := ⟨1, ![25690112]⟩
abbrev S6422528 : Shape := ⟨1, ![6422528]⟩
abbrev S_ : Shape := ⟨0, ![]⟩
abbrev S6422528x1 : Shape := ⟨2, ![6422528, 1]⟩

abbrev nBuf : Space → Nat
  | .hbm => 16
  | .vmem => 2
  | .smem => 0
  | _ => 0

abbrev bufTy : (tb : Table) → Fin (tcTables nBuf tb) → BufTy
  | .hbm, ⟨0, _⟩ => ⟨S32x56x56x64, .f32⟩
  | .hbm, ⟨1, _⟩ => ⟨S32x56x56x64, .i32⟩
  | .hbm, ⟨2, _⟩ => ⟨S32x112x112x64, .f32⟩
  | .hbm, ⟨3, _⟩ => ⟨S25690112, .f32⟩
  | .hbm, ⟨4, _⟩ => ⟨S6422528, .f32⟩
  | .hbm, ⟨5, _⟩ => ⟨S6422528, .i32⟩
  | .hbm, ⟨6, _⟩ => ⟨S_, .i32⟩
  | .hbm, ⟨7, _⟩ => ⟨S6422528, .i32⟩
  | .hbm, ⟨8, _⟩ => ⟨S6422528, .i1⟩
  | .hbm, ⟨9, _⟩ => ⟨S_, .i32⟩
  | .hbm, ⟨10, _⟩ => ⟨S6422528, .i32⟩
  | .hbm, ⟨11, _⟩ => ⟨S6422528, .i32⟩
  | .hbm, ⟨12, _⟩ => ⟨S6422528, .i32⟩
  | .hbm, ⟨13, _⟩ => ⟨S6422528x1, .i32⟩
  | .hbm, ⟨14, _⟩ => ⟨S25690112, .f32⟩
  | .hbm, ⟨15, _⟩ => ⟨S32x112x112x64, .f32⟩
  | .local _ .vmem, ⟨0, _⟩ => ⟨S1x112x112x64, .f32⟩
  | .local _ .vmem, ⟨1, _⟩ => ⟨S1x112x112x64, .f32⟩
  | _, _ => ⟨S32x56x56x64, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x112x112x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  inb_S1x112x112x64_S1x112x112x64_0_0_0_0 : ∀ a, (![0, 0, 0, 0] : Fin 4 → Nat) a + S1x112x112x64.size a ≤ S1x112x112x64.size a
  h_S1x112x112x64 : 0 < S1x112x112x64.numel
  shapeCasts_S32x112x112x64_S25690112 : S32x112x112x64.ShapeCasts S25690112
  shapeCasts_S32x56x56x64_S6422528 : S32x56x56x64.ShapeCasts S6422528
  bcast_S_S6422528 : S_.BroadcastsInDim S6422528 (![] : Fin 0 → Fin S6422528.rank)
  bcast_S6422528_S6422528x1_0 : S6422528.BroadcastsInDim S6422528x1 (![0] : Fin 1 → Fin S6422528x1.rank)
  shapeCasts_S25690112_S32x112x112x64 : S25690112.ShapeCasts S32x112x112x64
  scatter_S25690112_S6422528x1_S6422528_n_0_0_1_wf : ScatterDims.WF S25690112 S6422528x1 S6422528 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x112x112x64.size a ≤ S32x112x112x64.size a
  hwx0_0 : ∀ i : grid0.Coords, EltTy.bits .f32 = 32 ∨ (Rect.block (s := S32x112x112x64) S1x112x112x64.size (cc0_transform_0 i) (hinb0_0 i)).WholeWords (EltTy.packing .f32)

variable [Facts₀]

def scatter_S25690112_S6422528x1_S6422528_n_0_0_1 : ScatterDims S25690112 S6422528x1 S6422528 where
  updateWindowDims := []
  insertedWindowDims := [0]
  scatterDimsToOperandDims := [0]
  indexVectorDim := 1
  wf := scatter_S25690112_S6422528x1_S6422528_n_0_0_1_wf

abbrev win0_0 : Pipeline.Window sig grid0 :=
  Pipeline.Window.ofSpec (Memref.whole main_v0) S1x112x112x64.size cc0_transform_0 reads0_0 true false 2 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S32x56x56x64 : Shape := ⟨4, ![32, 56, 56, 64]⟩
abbrev S6422528 : Shape := ⟨1, ![6422528]⟩
abbrev S_ : Shape := ⟨0, ![]⟩
abbrev S25690112 : Shape := ⟨1, ![25690112]⟩
abbrev S6422528x1 : Shape := ⟨2, ![6422528, 1]⟩
abbrev S32x112x112x64 : Shape := ⟨4, ![32, 112, 112, 64]⟩

abbrev nBuf : Space → Nat
  | .hbm => 16
  | .vmem => 0
  | .smem => 0
  | _ => 0

abbrev bufTy : (tb : Table) → Fin (tcTables nBuf tb) → BufTy
  | .hbm, ⟨0, _⟩ => ⟨S32x56x56x64, .f32⟩
  | .hbm, ⟨1, _⟩ => ⟨S32x56x56x64, .i32⟩
  | .hbm, ⟨2, _⟩ => ⟨S6422528, .f32⟩
  | .hbm, ⟨3, _⟩ => ⟨S6422528, .i32⟩
  | .hbm, ⟨4, _⟩ => ⟨S_, .f32⟩
  | .hbm, ⟨5, _⟩ => ⟨S25690112, .f32⟩
  | .hbm, ⟨6, _⟩ => ⟨S_, .i32⟩
  | .hbm, ⟨7, _⟩ => ⟨S6422528, .i32⟩
  | .hbm, ⟨8, _⟩ => ⟨S6422528, .i1⟩
  | .hbm, ⟨9, _⟩ => ⟨S_, .i32⟩
  | .hbm, ⟨10, _⟩ => ⟨S6422528, .i32⟩
  | .hbm, ⟨11, _⟩ => ⟨S6422528, .i32⟩
  | .hbm, ⟨12, _⟩ => ⟨S6422528, .i32⟩
  | .hbm, ⟨13, _⟩ => ⟨S6422528x1, .i32⟩
  | .hbm, ⟨14, _⟩ => ⟨S25690112, .f32⟩
  | .hbm, ⟨15, _⟩ => ⟨S32x112x112x64, .f32⟩
  | _, _ => ⟨S32x56x56x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  shapeCasts_S32x56x56x64_S6422528 : S32x56x56x64.ShapeCasts S6422528
  bcast_S_S25690112 : S_.BroadcastsInDim S25690112 (![] : Fin 0 → Fin S25690112.rank)
  bcast_S_S6422528 : S_.BroadcastsInDim S6422528 (![] : Fin 0 → Fin S6422528.rank)
  bcast_S6422528_S6422528x1_0 : S6422528.BroadcastsInDim S6422528x1 (![0] : Fin 1 → Fin S6422528x1.rank)
  shapeCasts_S25690112_S32x112x112x64 : S25690112.ShapeCasts S32x112x112x64
  scatter_S25690112_S6422528x1_S6422528_n_0_0_1_wf : ScatterDims.WF S25690112 S6422528x1 S6422528 [] [0] [0] 1

variable [Facts₀]

def scatter_S25690112_S6422528x1_S6422528_n_0_0_1 : ScatterDims S25690112 S6422528x1 S6422528 where
  updateWindowDims := []
  insertedWindowDims := [0]
  scatterDimsToOperandDims := [0]
  indexVectorDim := 1
  wf := scatter_S25690112_S6422528x1_S6422528_n_0_0_1_wf

class Facts : Prop extends Facts₀ where

variable [Facts]
-- ==== Proof.ZeroFill.lean ====
/-
  The region's result array after the run, at any float instance.

  The pallas_call has no input and one output window: the array `main_v0` of shape [32, 112, 112, 64], cut along its first axis into
  32 blocks of shape [1, 112, 112, 64], block `t` written back at grid point `t`. The body stores ONE value through the whole block:
  the scalar +0.0 (the word 0x00000000) broadcast to the block's shape. So every grid point writes back a block that is constantly
  +0.0, which is block `t` of the constant array `zeros`; the 32 blocks cover the array (index `i` lies in block `i 0`); hence the
  array ends as `zeros`, whatever it held when the region was entered.
-/
import proofs.«129227_j72000831750265_2_alg».proof.Proof.KernelIdealFrameP
import Idealize.ShloMosaic.Lib.Pipeline.Value

set_option maxRecDepth 16384

noncomputable section

namespace Cert.KernelIdeal.ZeroFill

open Idealize.ShloMosaic Idealize.ShloMosaic.TcCoe Idealize.SL.Sem
open Cert.KernelIdeal Cert.KernelIdeal.Gen Cert.KernelIdeal.GenP

variable {F : FTy → Type} [FloatOps F]
variable (m : (ℓ : Loc nD τ sig) → Buf (Elt F) ℓ) (ρ : Dev nD → PrngReg)

/-- The array of shape [32, 112, 112, 64] that is +0.0 at every index. -/
def zeros : S32x112x112x64.Idx → Elt F .f32 := fun _ => FloatOps.ofBits .f32 0x00000000#32

/-- The store's offsets are all zero: it goes through the whole block. -/
theorem offsets_zero : (![0, 0, 0, 0] : Fin 4 → Nat) = fun _ => 0 := funext fun a => by fin_cases a <;> rfl

/-- What the body leaves in the output's staging buffer: +0.0 everywhere (its one store covers the buffer, and the stored value is
    the broadcast of the scalar +0.0). -/
theorem block_zero : (out0_0 : Vec F S1x112x112x64 .f32) = fun _ => FloatOps.ofBits .f32 0x00000000#32 := by
  unfold out0_0
  rw [View.canon_unit_zero offsets_zero]
  rfl

/-- The block index of the output window at grid point `t`: `t` along the first axis, 0 along the others (decided over the 32 points). -/
theorem index_at : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

/-- What grid point `t` writes back is block `t` of `zeros`: a constant array read through any block is that constant. -/
theorem flushed_zero (c : Dev nD) (t : Fin cfg0.N) :
    (dats m 0 c).flushed 0 t = ((cfg0.win 0).blk t).view.read (Elt F) (zeros (F := F)) := by
  show (cfg0.win 0).cut (grid0.coords t) ((dats m 0 c).after 0 t) = _
  rw [after0_0, block_zero]
  rfl

/-- An index of the array lies in point `t`'s block iff each coordinate lies in the block's range on its axis. -/
theorem mem_block (t : Fin cfg0.N) (i : S32x112x112x64.Idx) :
    i ∈ ((cfg0.win 0).blk t).view.set ↔ ∀ a : Fin 4, win0_0.index t a * S1x112x112x64.size a ≤ (i a).val
      ∧ (i a).val < win0_0.index t a * S1x112x112x64.size a + S1x112x112x64.size a := by
  show i ∈ ((View.whole main_v0).slice (win0_0.rect t)).set ↔ _
  rw [View.set_slice_whole, Rect.mem_set_unit]
  exact Iff.rfl

/-- The blocks cover the array: index `i` lies in the block of the grid point `i 0`, which writes its block back. -/
theorem covered (i : S32x112x112x64.Idx) :
    ∃ t : Fin cfg0.N, (cfg0.win 0).flush t = true ∧ i ∈ ((cfg0.win 0).blk t).view.set := by
  have h0 : (i 0).val < 32 := (i 0).isLt
  have h1 : (i 1).val < 112 := (i 1).isLt
  have h2 : (i 2).val < 112 := (i 2).isLt
  have h3 : (i 3).val < 64 := (i 3).isLt
  have hN : cfg0.N = 32 := N_0
  let t : Fin cfg0.N := ⟨(i 0).val, lt_of_lt_of_eq h0 hN.symm⟩
  obtain ⟨e0, e1, e2, e3⟩ := index_at t
  have e0' : win0_0.index t (0 : Fin 4) = (i 0).val := e0
  refine ⟨t, flush0_0 t, ?_⟩
  rw [mem_block]
  intro a
  match a with
  | ⟨0, _⟩ => show win0_0.index t (0 : Fin 4) * 1 ≤ (i 0).val ∧ (i 0).val < win0_0.index t (0 : Fin 4) * 1 + 1; omega
  | ⟨1, _⟩ => show win0_0.index t (1 : Fin 4) * 112 ≤ (i 1).val ∧ (i 1).val < win0_0.index t (1 : Fin 4) * 112 + 112; omega
  | ⟨2, _⟩ => show win0_0.index t (2 : Fin 4) * 112 ≤ (i 2).val ∧ (i 2).val < win0_0.index t (2 : Fin 4) * 112 + 112; omega
  | ⟨3, _⟩ => show win0_0.index t (3 : Fin 4) * 64 ≤ (i 3).val ∧ (i 3).val < win0_0.index t (3 : Fin 4) * 64 + 64; omega

/-- The region's array after the run is `zeros`. -/
theorem array_zero (c : Dev nD) : (dats m 0 c).arrAt 0 cfg0.N = zeros (F := F) :=
  (dats m 0 c).arrAt_eq_of_cover 0 (zeros (F := F)) (fun t _ => flushed_zero m c t) covered

end Cert.KernelIdeal.ZeroFill

end
-- ==== Proof.Tail.lean ====
/-
  The result of the idealized kernel's program as a function of the region's array, at any float instance.

  After the region the program runs thirteen host operations: it flattens the region's array `z` to a vector of 32·112·112·64 entries,
  flattens the values `x` and the positions `p`, replaces each negative position `p` by `p + 32·112·112·64`, scatters the values into
  the flattened `z` at those positions (the scatter's combining function keeps the scattered value and drops the entry it meets), and
  gives the vector back its four axes: `unpool z x p`. Those operations read three buffers only: the region's array, which the
  region leaves at what its proof data compute, and the two arguments, which the region does not touch. The result is therefore
  `unpool` of the region's array and the arguments; what the scatter does with its operands is never opened here.
-/
import proofs.«129227_j72000831750265_2_alg».proof.Proof.KernelIdealFrameP
import Idealize.ShloMosaic.Lib.StableHlo.Run

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen Cert.KernelIdeal.GenP

variable {F : FTy → Type} [FloatOps F]

/-- The host operations after the region as one function: the values `x` scattered into the flattened array `z` at the positions
    `p` (a negative position first increased by the vector's length 32·112·112·64 = 25690112), reshaped to [32, 112, 112, 64]. -/
def unpool (z : (⟨S32x112x112x64, .f32⟩ : BufTy).Contents (Elt F)) (x : (⟨S32x56x56x64, .f32⟩ : BufTy).Contents (Elt F))
    (p : (⟨S32x56x56x64, .i32⟩ : BufTy).Contents (Elt F)) : (⟨S32x112x112x64, .f32⟩ : BufTy).Contents (Elt F) :=
  shapeCast S32x112x112x64 (Host.scatter scatter_S25690112_S6422528x1_S6422528_n_0_0_1 (fun _ b => b)
      (shapeCast S25690112 z shapeCasts_S32x112x112x64_S25690112)
      (broadcastInDim S6422528x1 ![0] bcast_S6422528_S6422528x1_0
        (select
          (cmpi .slt (shapeCast S6422528 p shapeCasts_S32x56x56x64_S6422528)
            (broadcastInDim S6422528 ![] bcast_S_S6422528 (constantI S_ 32 0#32)))
          (addi (shapeCast S6422528 p shapeCasts_S32x56x56x64_S6422528)
            (broadcastInDim S6422528 ![] bcast_S_S6422528 (constantI S_ 32 25690112#32)))
          (shapeCast S6422528 p shapeCasts_S32x56x56x64_S6422528)))
      (shapeCast S6422528 x shapeCasts_S32x56x56x64_S6422528))
    shapeCasts_S25690112_S32x112x112x64

variable (m : (ℓ : Loc nD τ sig) → Buf (Elt F) ℓ) (ρ : Dev nD → PrngReg)

/-- After the region the output window's array holds what the proof data compute for it. -/
theorem region_array (c : Dev nD) :
    Pipeline.withArrays (cfgs 0).spec c (V0 m c) (fun w => (dats m 0 c).arrAt w (cfgs 0).N) (Proc.devRef .tc main_v0)
      = (dats m 0 c).arrAt 0 cfg0.N :=
  Pipeline.withArrays_arr spec0 launch0.win.arr_inj c _ _ 0

/-- The values are no array of the region: they are as launched. -/
theorem values_kept (c : Dev nD) :
    Pipeline.withArrays (cfgs 0).spec c (V0 m c) (fun w => (dats m 0 c).arrAt w (cfgs 0).N) (Proc.devRef .tc main_arg0)
      = m ((c : Thread nD τ).loc main_arg0) :=
  (Pipeline.withArrays_of_ne _ c (V0 m c) _ main_arg0 (by exact (by decide : ∀ w, Pipeline.arrRef spec0 w ≠ main_arg0))).trans
    (V_main_arg0 m c)

/-- Nor are the positions. -/
theorem positions_kept (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans
    (V_main_arg1 m c)

/-- The program's result after the host operations that follow the region, when the region leaves its array at `z`:
    `unpool z` of the two arguments as launched. -/
theorem result_of_region_array (c : Dev nD) (z : S32x112x112x64.Idx → Elt F .f32) (hz : (dats m 0 c).arrAt 0 cfg0.N = z) :
    Pipeline.afterTail₀ cfgs (dats m) 0 (V0 m) [hostOps1] c main_v11
      = unpool z (m ((c.tc : Thread nD τ).loc main_arg0)) (m ((c.tc : Thread nD τ).loc main_arg1)) := by
  unfold Pipeline.afterTail₀
  show StableHlo.after hostOps1 _ (Proc.devRef .tc main_v11) = _
  after_results
  rw [region_array, values_kept, positions_kept, hz]
  rfl

end Cert.KernelIdeal.Tail

end
-- ==== Proof.Bridge.lean ====
/-
  The two idealized programs compute one function of the arguments.

  The idealized kernel's program fills an array of shape [32, 112, 112, 64] with +0.0 in its region and hands it to the host
  operations `unpool`: flatten, wrap the negative positions, scatter the values at the positions, reshape. The idealized reference
  builds the vector of 32·112·112·64 entries +0.0 directly, as a scalar constant broadcast, and applies the same operations from the
  scatter on. A flattened array that is +0.0 at every index IS that vector: both are the constant function +0.0, and a reshape or a
  broadcast of a constant function is that constant function. Everything after the base vector is the same term on both sides, so
  the results are equal; no property of the scatter, of the positions or of the values is used, and the inputs' finiteness is not
  needed.
-/
import proofs.«129227_j72000831750265_2_alg».proof.Proof.ZeroFill
import proofs.«129227_j72000831750265_2_alg».proof.Proof.Tail
import proofs.«129227_j72000831750265_2_alg».proof.Proof.Gen.ReferenceIdeal.Run

set_option maxRecDepth 16384

noncomputable section

open Idealize.ShloMosaic Idealize.ShloMosaic.TcCoe Idealize.SL.Sem

/-! ## The kernel's run, read -/

namespace Cert.KernelIdeal.Unpooled

open Cert.KernelIdeal Cert.KernelIdeal.Gen Cert.KernelIdeal.GenP

variable {F : FTy → Type} [FloatOps F]
variable (m : (ℓ : Loc nD τ sig) → Buf (Elt F) ℓ) (ρ : Dev nD → PrngReg)

/-- Every weakly fair execution of the idealized kernel's program terminates with its result at `unpool` of the all-zero array and
    the arguments, and the arguments unchanged: the frame run's post read at the result (the host operations after the region,
    applied to the region's array, which is all zero) and at the two arguments. -/
theorem run : θ_run defs (onTc (τ := τ) (main (F := F))) ⟨m, fun _ => 0, ρ⟩ fun r => ∀ c : Dev nD,
      r.2.mem ((c.tc : Thread nD τ).loc main_v11)
        = Tail.unpool (ZeroFill.zeros (F := F)) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v11 (Pipeline.mem_restRefs_of main_v11 (by decide) (by decide))).trans
          (Tail.result_of_region_array m c _ (ZeroFill.array_zero m c)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Unpooled

/-! ## The reference's term is the kernel's function -/

namespace Cert.ReferenceIdeal.Unpooled

open Cert.ReferenceIdeal Cert.ReferenceIdeal.Gen

variable {F : FTy → Type} [FloatOps F]

/-- The reference's base vector, the scalar +0.0 broadcast to 32·112·112·64 entries, is the flattened all-zero array: both are +0.0
    at every index. -/
theorem zero_vector :
    (broadcastInDim S25690112 ![] bcast_S_S25690112 (constant (F := F) S_ .f32 0x00000000#32) :
        (⟨S25690112, .f32⟩ : BufTy).Contents (Elt F))
      = shapeCast Cert.KernelIdeal.S25690112 (Cert.KernelIdeal.ZeroFill.zeros (F := F))
          Cert.KernelIdeal.Facts₀.shapeCasts_S32x112x112x64_S25690112 :=
  funext fun _ => rfl

/-- The reference run's result term is `unpool` of the all-zero array, the values and the positions: the base vectors agree
    (`zero_vector`) and the operations applied to them are the same. -/
theorem result_eq (x : (⟨S32x56x56x64, .f32⟩ : BufTy).Contents (Elt F)) (p : (⟨S32x56x56x64, .i32⟩ : BufTy).Contents (Elt F)) :
    shapeCast S32x112x112x64 (Host.scatter scatter_S25690112_S6422528x1_S6422528_n_0_0_1 (fun _ b => b)
        (broadcastInDim S25690112 ![] bcast_S_S25690112 (constant S_ .f32 0x00000000#32))
        (broadcastInDim S6422528x1 ![0] bcast_S6422528_S6422528x1_0
          (select
            (cmpi .slt (shapeCast S6422528 p shapeCasts_S32x56x56x64_S6422528)
              (broadcastInDim S6422528 ![] bcast_S_S6422528 (constantI S_ 32 0#32)))
            (addi (shapeCast S6422528 p shapeCasts_S32x56x56x64_S6422528)
              (broadcastInDim S6422528 ![] bcast_S_S6422528 (constantI S_ 32 25690112#32)))
            (shapeCast S6422528 p shapeCasts_S32x56x56x64_S6422528)))
        (shapeCast S6422528 x shapeCasts_S32x56x56x64_S6422528))
      shapeCasts_S25690112_S32x112x112x64
    = Cert.KernelIdeal.Tail.unpool (Cert.KernelIdeal.ZeroFill.zeros (F := F)) x p := by
  rw [zero_vector]
  rfl

end Cert.ReferenceIdeal.Unpooled

end
-- ==== Proof.lean ====
/-
  Max-unpooling as a scatter into a zeroed buffer: the kernel against its reference.

  Both programs return, for values `x` and integer positions `p` of shape [32, 56, 56, 64], the array of shape [32, 112, 112, 64]
  obtained by scattering the flattened values into a vector of 32·112·112·64 zeros at the flattened positions (a negative position
  first increased by the vector's length) and reshaping. They differ only in where the zeros come from: the reference broadcasts
  the scalar +0.0; the kernel's program fills an array with +0.0 block by block in a pallas_call — 32 grid points, point `t` storing
  +0.0 through the whole block [t, :, :, :] — and flattens it.

  * The three frames. The two kernel programs' frames are the frame certificate of the one-region program (every execution
    terminates without a fault and leaves the arguments as launched); the reference has no region, and its frame is its run with the
    result dropped.
  * `preserves`: the ideal pass rewrote no operation of the kernel, so there is nothing to state.
  * `algebraic`: the region leaves its array at the constant +0.0 (Proof/ZeroFill.lean: each point writes back a constant block, and
    the blocks cover the array), so the kernel program's result is the host operations `unpool` of that array and the arguments
    (Proof/Tail.lean); the reference's result is the same operations applied to the broadcast constant, which is the same vector
    (Proof/Bridge.lean). Equality holds for all values and positions whatsoever; the precondition is not used.
-/
import proofs.«129227_j72000831750265_2_alg».proof.Defs
import proofs.«129227_j72000831750265_2_alg».proof.Proof.Gen.Kernel
import proofs.«129227_j72000831750265_2_alg».proof.Proof.Gen.KernelIdeal
import proofs.«129227_j72000831750265_2_alg».proof.Proof.Gen.ReferenceIdeal
import proofs.«129227_j72000831750265_2_alg».proof.Proof.Gen.ReferenceIdeal.Run
import proofs.«129227_j72000831750265_2_alg».proof.Proof.Gen.Pre_finite_inputs
import proofs.«129227_j72000831750265_2_alg».proof.Proof.KernelFrameP
import proofs.«129227_j72000831750265_2_alg».proof.Proof.KernelIdealFrameP
import proofs.«129227_j72000831750265_2_alg».proof.Proof.Bridge
import Idealize.ShloMosaic.Adequacy
import Idealize.ShloMosaic.Init

noncomputable section

namespace Cert.Proof

open Idealize.ShloMosaic Idealize.SL.Sem

/-- The kernel's program as printed runs and leaves its arguments unchanged. -/
theorem frame_kernel : Cert.frame_Kernel := fun m ρ _ => Cert.Kernel.GenP.frame m ρ

/-- So does its idealization. -/
theorem frame_kernel_ideal : Cert.frame_KernelIdeal := fun m ρ _ => Cert.KernelIdeal.GenP.frame m ρ

/-- The idealized reference runs and leaves its arguments unchanged: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the values scattered into the zero vector at the
    wrapped positions, reshaped: the kernel's through its zero-filled array, the reference's through the broadcast zero. -/
theorem algebraic : Cert.algebraic_KernelIdeal_ReferenceIdeal := by
  intro m ρ m' ρ' _ hagree
  refine ⟨_, Cert.KernelIdeal.Unpooled.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.Unpooled.result_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
